-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Affine.lean ====
/-
  The affine map y = x · wᵀ + b, entry by entry.

  x is a batch of 8192 rows of 4096 features, w holds one row of 4096 input weights per output feature (4096 of
  them), b one offset per output feature. Entry (r, o) of the result is row r of x against row o of w, summed
  over the 4096 shared features, plus b at o. The sum over the shared features may be taken 512 features at a
  time: eight partial sums, one per tile of 512, add up to the whole (`sum_by_tiles`) — only the commutativity
  and associativity of addition on the extended reals, so no entry needs to be finite.
-/
import Idealize.ShloMosaic.Lib.ValueIdx
import proofs.«176300_j20899310862697_2_alg».proof.Proof.LibSumSplit

noncomputable section

namespace Cert.Affine

open Idealize.ShloMosaic Idealize.ShloMosaic.ValueIdx

/-- Entry (r, o) of x · wᵀ + b: the sum over the shared feature k of x (r, k) · w (o, k), plus b o. -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * w (ix2 (i 1) k)) + b (ix1 (i 1))

theorem affine_apply (x : (⟨2, ![8192, 4096]⟩ : Shape).Idx → EReal) (w : (⟨2, ![4096, 4096]⟩ : Shape).Idx → EReal)
    (b : (⟨1, ![4096]⟩ : Shape).Idx → EReal) (r : Fin 8192) (o : Fin 4096) :
    affine x w b (ix2 r o) = (∑ k : Fin 4096, x (ix2 r k) * w (ix2 o k)) + b (ix1 o) := rfl

/-- Feature `k` of tile `s`, of eight tiles of 512 features. -/
abbrev feat (s : Fin 8) (k : Fin 512) : Fin 4096 := Cert.PointDist.tileIdx (by decide : 8 * 512 = 4096) s k

theorem feat_val (s : Fin 8) (k : Fin 512) : (feat s k).val = s.val * 512 + k.val := rfl

/-- A sum over the 4096 features is the sum of its eight partial sums over tiles of 512 features, the tiles counted
    by a natural below 8. -/
theorem sum_by_tiles (f : Fin 4096 → EReal) (g : ℕ → EReal)
    (hg : ∀ s : Fin 8, g s.val = ∑ k : Fin 512, f (feat s k)) :
    ∑ s ∈ Finset.range 8, g s = ∑ n : Fin 4096, f n := by
  rw [Finset.sum_range, Cert.PointDist.sum_tiles (by decide : 8 * 512 = 4096) f]
  exact Finset.sum_congr rfl fun s _ => hg s

end Cert.Affine

end
-- ==== Proof.RefRead.lean ====
/-
  The reference computes the affine map.

  The reference is one contraction of x's axis 1 with w's axis 1, then the offsets b broadcast to every row and
  added. Read at entry (r, o): the contraction is the sum over k of x (r, k) · w (o, k), the broadcast offset is
  b o. That is the affine map's entry.
-/
import proofs.«176300_j20899310862697_2_alg».proof.Proof.Gen.ReferenceIdeal.Read
import proofs.«176300_j20899310862697_2_alg».proof.Proof.Affine

noncomputable section

namespace Cert.ReferenceIdeal.RefValue

open Cert.ReferenceIdeal Cert.ReferenceIdeal.Gen Idealize.ShloMosaic Idealize.ShloMosaic.ValueIdx
open Cert.Affine

/-- The reference's result, as a function of its three arguments, is the affine map. -/
theorem ref_eq (x : (⟨S8192x4096, .f32⟩ : BufTy).Contents (Elt Ideal)) (w : (⟨S4096x4096, .f32⟩ : BufTy).Contents (Elt Ideal))
    (b : (⟨S4096, .f32⟩ : BufTy).Contents (Elt Ideal)) :
    Read.val_main_v3 (F := Ideal) x w b = affine x w b := by
  funext i
  obtain ⟨r, o, rfl⟩ : ∃ (r : Fin 8192) (o : Fin 4096), i = ix2 r o := ⟨i 0, i 1, eq_ix2 i⟩
  have el : ∀ k : Fin 4096, Read.lidx_main_v0 (ix2 r o) k = ix2 r k := fun k =>
    funext fun a => Fin.ext (by match a with | ⟨0, _⟩ => rfl | ⟨1, _⟩ => rfl)
  have er : ∀ k : Fin 4096, Read.ridx_main_v0 (ix2 r o) k = ix2 o k := fun k =>
    funext fun a => Fin.ext (by match a with | ⟨0, _⟩ => rfl | ⟨1, _⟩ => rfl)
  have eb : Read.idx_main_v1 (Read.idx_main_v2 (ix2 r o)) = ix1 o :=
    funext fun a => Fin.ext (by match a with | ⟨0, _⟩ => rfl)
  rw [Read.val_main_v3_apply, Read.val_main_v0_apply, Read.val_main_v2_apply, Read.val_main_v1_apply, eb, affine_apply]
  simp only [el, er, Ideal.addf_def]

end Cert.ReferenceIdeal.RefValue

end
-- ==== Proof.LibDotRowsT.lean ====
/-
  A matrix product against a transposed right operand, read at an entry.

  Both operands are stored row by row over the shared axis: the left operand is [m, K], the right operand is
  [n, K], and the product contracts the left operand's axis 1 with the right operand's axis 1 (the einsum
  mk,nk->mn). Its entry (p, q) is the sum over k of left (p, k) times right (q, k): row p of the left operand
  against row q of the right one. (The companion of the untransposed form, mk,kn->mn, which reads
  left (p, k) times right (k, q).)
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts the left operand's axis 1 (extent `K`) with the right operand's axis 1 and
    keeps the left operand's axis 0 and the right operand's axis 0 as the output's two axes; `SL` and `SR` are the
    operands' shapes. It expects `l`, `r`, `p`, `q` in scope under these names. -/
macro "dot_rows_t " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Payloads.lean ====
/-
  What the kernel body stores, read at an entry of the [1024, 2048] output tile.

  The body holds one output tile of 1024 batch rows by 2048 output features and works on it in three ways. It clears
  the tile (every entry zero). It adds to the tile the product of a tile of x — 1024 rows by 512 features — with
  a tile of w — 2048 output features by the same 512 features: entry (p, q) grows by the sum over the 512 shared
  features k of x (p, k) · w (q, k). (The narrowing of x to the narrower float format before the product does not
  change an extended real.) And it adds a row of 2048 offsets to every one of the tile's rows: entry (p, q) grows
  by the offset at q.
-/
import proofs.«176300_j20899310862697_2_alg».proof.Proof.Gen.KernelIdeal.Skeleton
import proofs.«176300_j20899310862697_2_alg».proof.Proof.LibDotRowsT
import proofs.«176300_j20899310862697_2_alg».proof.Proof.LibRowBroadcast
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The cleared tile is zero at every entry. -/
theorem cleared_apply (j : S1024x2048.Idx) : k0_pay1 (F := Ideal) j = 0 := by
  unfold k0_pay1
  exact Ideal.ofBits_zero_f32

/-- The product of a tile of x with a tile of w, into a zero accumulator, at entry (p, q): row p of the first
    against row q of the second, over the 512 shared features. -/
theorem tileDot_apply (l : FVec Ideal S1024x512 .bf16) (r : FVec Ideal S2048x512 .bf16) (p : Fin 1024) (q : Fin 2048) :
    matmul dot_S1024x512_S2048x512_S1024x2048_1_1_0_0_n_n none l r (constant (F := Ideal) S1024x2048 .f32 0x00000000#32) (ix2 p q)
      = ∑ k : Fin 512, l (ix2 p k) * r (ix2 q k) := by
  refine (Ideal.matmul_constant_zero_apply dot_S1024x512_S2048x512_S1024x2048_1_1_0_0_n_n none l r (ix2 p q)).trans ?_
  dot_rows_t dot_S1024x512_S2048x512_S1024x2048_1_1_0_0_n_n S1024x512 S2048x512 512

/-- The accumulating store at entry (p, q): what the tile held there, plus the product of the two input tiles. -/
theorem accumulated_apply (x0 : FVec Ideal S1024x512 .f32) (x1 : FVec Ideal S2048x512 .bf16) (acc : FVec Ideal S1024x2048 .f32)
    (p : Fin 1024) (q : Fin 2048) :
    k0_pay2 x0 x1 acc (ix2 p q) = acc (ix2 p q) + ∑ k : Fin 512, x0 (ix2 p k) * x1 (ix2 q k) := by
  unfold k0_pay2
  rw [shapeCast_self, shapeCast_self]
  refine (addf_apply _ _ _).trans ?_
  rw [tileDot_apply]
  rfl

/-- The offset store at entry (p, q): what the tile held there, plus the offset row's entry q. -/
theorem offset_apply (acc : FVec Ideal S1024x2048 .f32) (x2 : FVec Ideal S1x2048 .f32) (p : Fin 1024) (q : Fin 2048) :
    k0_pay3 acc x2 (ix2 p q) = acc (ix2 p q) + x2 (ix2 (0 : Fin 1) q) := by
  unfold k0_pay3
  rw [shapeCast_self, shapeCast_self]
  refine (addf_apply _ _ _).trans ?_
  rw [Cert.RowBroadcast.broadcastTo_1b_ab_apply]

end Cert.KernelIdeal.Tile

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Tiles.lean ====
/-
  Each window's block at a grid point, read off the argument arrays.

  The grid has 8 · 2 · 8 = 128 points; point t = 16·i + 8·j + s works on batch-row tile i (of 8), output-feature
  tile j (of 2) and shared-feature tile s (of 8), so i = t / 16, j = t / 8 mod 2 and s = t mod 8.
  • The x window's block at t is rows 1024·i … 1024·i + 1023 and features 512·s … 512·s + 511 of x.
  • The w window's block at t is rows 2048·j … of w and the same 512 features. The array the window stages is w
    narrowed to a shorter float format before the call, which on the extended reals is w itself.
  • The offset window's block at t is entries 2048·j … 2048·j + 2047 of b, held as one row: the array the window
    stages is b laid out as a single row of 4096 entries.
  Which block index each window's index map gives at each point is decided once over the 128 points.
-/
import proofs.«176300_j20899310862697_2_alg».proof.Proof.Gen.KernelIdeal.Frame.Runs
import proofs.«176300_j20899310862697_2_alg».proof.Proof.LibRowCast
import Idealize.ShloMosaic.Lib.StableHlo.Run
import Idealize.ShloMosaic.Lib.ValueIdx

noncomputable section

namespace Cert.KernelIdeal.Tile

open Cert.KernelIdeal Cert.KernelIdeal.Gen Idealize.ShloMosaic Idealize.ShloMosaic.TcCoe Idealize.SL.Sem
open Idealize.ShloMosaic.StableHlo Idealize.ShloMosaic.ValueIdx

/-! ## Where each window's block sits -/

/-- The x window at point t: row tile t / 16, feature tile t mod 8. -/
theorem where_x : ∀ t : Fin cfg0.N, win0_0.index t (0 : Fin 2) = t.val / 16 ∧ win0_0.index t (1 : Fin 2) = t.val % 8 :=
  (by decide +kernel : ∀ t : Fin grid0.N, _)

/-- The w window at point t: output-feature tile t / 8 mod 2, feature tile t mod 8. -/
theorem where_w : ∀ t : Fin cfg0.N, win0_1.index t (0 : Fin 2) = t.val / 8 % 2 ∧ win0_1.index t (1 : Fin 2) = t.val % 8 :=
  (by decide +kernel : ∀ t : Fin grid0.N, _)

/-- The offset window at point t: the one row, output-feature tile t / 8 mod 2. -/
theorem where_b : ∀ t : Fin cfg0.N, win0_2.index t (0 : Fin 2) = 0 ∧ win0_2.index t (1 : Fin 2) = t.val / 8 % 2 :=
  (by decide +kernel : ∀ t : Fin grid0.N, _)

/-! ## The arrays the windows stage -/

section Generic

variable {F : FTy → Type} [FloatOps F]
variable (m : (ℓ : Loc nD τ sig) → Buf (Elt F) ℓ)

/-- The array the w window stages: w, narrowed to the shorter float format. -/
theorem staged_w (c : Dev nD) :
    (V m c main_v0 : (⟨S4096x4096, .bf16⟩ : BufTy).Contents (Elt F)) = truncf .bf16 (m ((c : Thread nD τ).loc main_arg1)) bitsLt_bf16_f32 := by
  dsimp only [Gen.V, Gen.hostOps0]
  after_results

/-- The array the offset window stages: b as one row of 4096 entries. -/
theorem staged_b (c : Dev nD) :
    (V m c main_v1 : (⟨S1x4096, .f32⟩ : BufTy).Contents (Elt F)) = shapeCast S1x4096 (m ((c : Thread nD τ).loc main_arg2)) shapeCasts_S4096_S1x4096 := by
  dsimp only [Gen.V, Gen.hostOps0]
  after_results
  rfl

/-- The x window's block at point t, as a [1024, 512] tile. -/
abbrev xTileAt (c : Dev nD) (t : Fin cfg0.N) : Vec F S1024x512 .f32 := iblk m c 0 t
/-- The w window's block at point t, as a [2048, 512] tile. -/
abbrev wTileAt (c : Dev nD) (t : Fin cfg0.N) : Vec F S2048x512 .bf16 := iblk m c 1 t
/-- The offset window's block at point t, as one row of 2048 entries. -/
abbrev bTileAt (c : Dev nD) (t : Fin cfg0.N) : Vec F S1x2048 .f32 := iblk m c 2 t

/-- The x window's block at point t, entry (p, k): x at row 1024·(t / 16) + p, feature 512·(t mod 8) + k. -/
theorem xTile_apply (c : Dev nD) (t : Fin cfg0.N) (p : Fin 1024) (k : Fin 512) (r : Fin 8192) (f : Fin 4096)
    (hr : r.val = t.val / 16 * 1024 + p.val) (hf : f.val = t.val % 8 * 512 + k.val) :
    xTileAt m c t (ix2 p k) = m ((c : Thread nD τ).loc main_arg0) (ix2 r f) := by
  obtain ⟨e0, e1⟩ := where_x t
  show V m c main_arg0 (((cfg0.win 0).blk t).view.emb (ix2 p k)) = _
  rw [V_main_arg0]
  refine congrArg (m ((c : Thread nD τ).loc main_arg0)) (funext fun a => Fin.ext ?_)
  match a with
  | ⟨0, _⟩ =>
    show win0_0.index t (0 : Fin 2) * 1024 + 1 * p.val = r.val
    rw [e0, hr]; omega
  | ⟨1, _⟩ =>
    show win0_0.index t (1 : Fin 2) * 512 + 1 * k.val = f.val
    rw [e1, hf]; omega

/-- The offset window's block at point t, entry (0, q): b at 2048·(t / 8 mod 2) + q. -/
theorem bTile_apply (c : Dev nD) (t : Fin cfg0.N) (q : Fin 2048) (o : Fin 4096)
    (ho : o.val = t.val / 8 % 2 * 2048 + q.val) :
    bTileAt m c t (ix2 (0 : Fin 1) q) = m ((c : Thread nD τ).loc main_arg2) (ix1 o) := by
  obtain ⟨e0, e1⟩ := where_b t
  show V m c main_v1 (((cfg0.win 2).blk t).view.emb (ix2 (0 : Fin 1) q)) = _
  rw [staged_b]
  have e : ((cfg0.win 2).blk t).view.emb (ix2 (0 : Fin 1) q) = ix2 (0 : Fin 1) o := funext fun a => Fin.ext (by
    match a with
    | ⟨0, _⟩ =>
      show win0_2.index t (0 : Fin 2) * 1 + 1 * 0 = 0
      rw [e0]
    | ⟨1, _⟩ =>
      show win0_2.index t (1 : Fin 2) * 2048 + 1 * q.val = o.val
      rw [e1, ho]; omega)
  rw [e]
  exact Cert.RowCast.shapeCast_row_apply _ _ _ _

end Generic

/-- The w window's block at point t, entry (q, k), on the extended reals: w at row 2048·(t / 8 mod 2) + q,
    feature 512·(t mod 8) + k — the narrowing of the float format changes no extended real. -/
theorem wTile_apply (m : (ℓ : Loc nD τ sig) → Buf (Elt Ideal) ℓ) (c : Dev nD) (t : Fin cfg0.N) (q : Fin 2048) (k : Fin 512)
    (o : Fin 4096) (f : Fin 4096) (ho : o.val = t.val / 8 % 2 * 2048 + q.val) (hf : f.val = t.val % 8 * 512 + k.val) :
    wTileAt m c t (ix2 q k) = m ((c : Thread nD τ).loc main_arg1) (ix2 o f) := by
  obtain ⟨e0, e1⟩ := where_w t
  show V m c main_v0 (((cfg0.win 1).blk t).view.emb (ix2 q k)) = _
  rw [staged_w]
  show m ((c : Thread nD τ).loc main_arg1) (((cfg0.win 1).blk t).view.emb (ix2 q k)) = _
  refine congrArg (m ((c : Thread nD τ).loc main_arg1)) (funext fun a => Fin.ext ?_)
  match a with
  | ⟨0, _⟩ =>
    show win0_1.index t (0 : Fin 2) * 2048 + 1 * q.val = o.val
    rw [e0, ho]; omega
  | ⟨1, _⟩ =>
    show win0_1.index t (1 : Fin 2) * 512 + 1 * k.val = f.val
    rw [e1, hf]; omega

end Cert.KernelIdeal.Tile

end
-- ==== Proof.Fold.lean ====
/-
  What a run of eight grid points leaves in an output tile is the affine map's tile.

  The eight points 8·u … 8·u + 7 share one output tile (batch-row tile u / 2, output-feature tile u mod 2) and walk
  through the eight tiles of 512 shared features. The first point clears the tile and adds its product; each of
  the next six adds its product; the last adds its product and then the offsets. So entry (p, l) of the tile ends at

      0 + (the sum over the eight points s of  Σ_k x (r, 512·s + k) · w (o, 512·s + k))  +  b o,

  where r and o are the array coordinates of the entry. The eight partial sums over 512 features are one sum over
  the 4096 features, so this is the affine map's entry (r, o). Nothing here asks an entry to be finite: the sums are
  only regrouped.
-/
import proofs.«176300_j20899310862697_2_alg».proof.Proof.Gen.KernelIdeal.Value
import proofs.«176300_j20899310862697_2_alg».proof.Proof.Payloads
import proofs.«176300_j20899310862697_2_alg».proof.Proof.Tiles
import proofs.«176300_j20899310862697_2_alg».proof.Proof.Affine

noncomputable section

namespace Cert.KernelIdeal.Tile

open Cert.KernelIdeal Cert.KernelIdeal.Gen Cert.KernelIdeal.Value Idealize.ShloMosaic Idealize.ShloMosaic.TcCoe Idealize.SL.Sem
open Idealize.ShloMosaic.ValueIdx Cert.Affine

variable (m : (ℓ : Loc nD τ sig) → Buf (Elt Ideal) ℓ)

/-- The argument arrays, as arrays of extended reals: x, w and b. -/
abbrev xArr (c : Dev nD) : FVec Ideal S8192x4096 .f32 := m ((c : Thread nD τ).loc main_arg0)
abbrev wArr (c : Dev nD) : FVec Ideal S4096x4096 .f32 := m ((c : Thread nD τ).loc main_arg1)
abbrev bArr (c : Dev nD) : FVec Ideal S4096 .f32 := m ((c : Thread nD τ).loc main_arg2)

/-- What point `n` adds to entry (p, l) of the output tile: the product of its x tile and its w tile there (zero past
    the grid, where it is never used). -/
def addend (c : Dev nD) (n : ℕ) (p : Fin 1024) (l : Fin 2048) : EReal :=
  if h : n < cfg0.N then
    ∑ k : Fin 512, xTileAt m c ⟨n, h⟩ (ix2 p k) * wTileAt m c ⟨n, h⟩ (ix2 l k)
  else 0

/-- At a point of the run over output tile (u / 2, u mod 2), the addend at the entry whose array coordinates are
    (r, o) is the partial sum over feature tile `s` of x (r, ·) · w (o, ·). -/
theorem addend_apply (c : Dev nD) (u : ℕ) (s : Fin 8) (hs : 8 * u + s.val < cfg0.N) (p : Fin 1024) (l : Fin 2048)
    (r : Fin 8192) (o : Fin 4096) (hr : r.val = u / 2 * 1024 + p.val) (ho : o.val = u % 2 * 2048 + l.val) :
    addend m c (8 * u + s.val) p l
      = ∑ k : Fin 512, xArr m c (ix2 r (feat s k)) * wArr m c (ix2 o (feat s k)) := by
  have hs8 := s.isLt
  unfold addend
  rw [dif_pos hs]
  refine Finset.sum_congr rfl fun k _ => ?_
  rw [xTile_apply m c ⟨8 * u + s.val, hs⟩ p k r (feat s k)
      (by show r.val = (8 * u + s.val) / 16 * 1024 + p.val; omega)
      (by show s.val * 512 + k.val = (8 * u + s.val) % 8 * 512 + k.val; omega),
    wTile_apply m c ⟨8 * u + s.val, hs⟩ l k o (feat s k)
      (by show o.val = (8 * u + s.val) / 8 % 2 * 2048 + l.val; omega)
      (by show s.val * 512 + k.val = (8 * u + s.val) % 8 * 512 + k.val; omega)]

/-- The whole run's fold at entry (p, l) of output tile (u / 2, u mod 2) is the affine map at the entry's array
    coordinates (r, o). -/
theorem run_apply (c : Dev nD) (u : ℕ) (h : 8 * u + 7 < cfg0.N) (p : Fin 1024) (l : Fin 2048)
    (r : Fin 8192) (o : Fin 4096) (hr : r.val = u / 2 * 1024 + p.val) (ho : o.val = u % 2 * 2048 + l.val) :
    Pipeline.accAt (reset3 m c) (step3 m c) (8 * u) 7 h (ix2 p l)
      = affine (m ((c : Thread nD τ).loc main_arg0)) (m ((c : Thread nD τ).loc main_arg1)) (m ((c : Thread nD τ).loc main_arg2)) (ix2 r o) := by
  have hN : cfg0.N = 128 := N_0
  have h6 : 8 * u + 6 < cfg0.N := by omega
  -- the first seven points: the cleared tile plus their seven products
  have hsum : Pipeline.accAt (reset3 m c) (step3 m c) (8 * u) 6 h6 (ix2 p l)
      = 0 + ∑ s ∈ Finset.range 7, addend m c (8 * u + s) p l :=
    Pipeline.accAt_add_apply (β := EReal) (reset3 m c) (step3 m c) (fun _ => (0 : EReal))
      (fun n j => addend m c n (j 0) (j 1)) (8 * u) 6
      (fun h0 j => by
        obtain ⟨p', l', rfl⟩ : ∃ (p' : Fin 1024) (l' : Fin 2048), j = ix2 p' l' := ⟨j 0, j 1, eq_ix2 j⟩
        show reset3 m c (8 * u) h0 (ix2 p' l') = 0 + addend m c (8 * u) p' l'
        unfold reset3 addend
        rw [dif_pos h0]
        refine (accumulated_apply (xTileAt m c ⟨8 * u, h0⟩) (wTileAt m c ⟨8 * u, h0⟩) _ p' l').trans ?_
        rw [cleared_apply])
      (fun n hn acc j h1 h2 => by
        obtain ⟨p', l', rfl⟩ : ∃ (p' : Fin 1024) (l' : Fin 2048), j = ix2 p' l' := ⟨j 0, j 1, eq_ix2 j⟩
        show step3 m c n hn acc (ix2 p' l') = acc (ix2 p' l') + addend m c n p' l'
        unfold step3 addend
        rw [if_pos (by omega), dif_pos hn]
        exact accumulated_apply (xTileAt m c ⟨n, hn⟩) (wTileAt m c ⟨n, hn⟩) acc p' l')
      6 le_rfl h6 (ix2 p l)
  -- the last point: its product, then the offsets
  have hlast : Pipeline.accAt (reset3 m c) (step3 m c) (8 * u) 7 h
      = step3 m c (8 * u + 7) h (Pipeline.accAt (reset3 m c) (step3 m c) (8 * u) 6 h6) := rfl
  have hadd7 : addend m c (8 * u + 7) p l
      = ∑ k : Fin 512, xTileAt m c ⟨8 * u + 7, h⟩ (ix2 p k) * wTileAt m c ⟨8 * u + 7, h⟩ (ix2 l k) := by
    unfold addend
    rw [dif_pos h]
  have hstep7 : ∀ acc : Vec Ideal S1024x2048 .f32, step3 m c (8 * u + 7) h acc
      = k0_pay3 (k0_pay2 (xTileAt m c ⟨8 * u + 7, h⟩) (wTileAt m c ⟨8 * u + 7, h⟩) acc) (bTileAt m c ⟨8 * u + 7, h⟩) := fun acc => by
    unfold step3
    rw [if_neg (by omega), if_pos (by omega)]
  rw [hlast, hstep7]
  refine (offset_apply _ (bTileAt m c ⟨8 * u + 7, h⟩) p l).trans ?_
  rw [affine_apply]
  refine congrArg₂ (· + ·) ?_ (bTile_apply m c ⟨8 * u + 7, h⟩ l o (by show o.val = (8 * u + 7) / 8 % 2 * 2048 + l.val; omega))
  refine (accumulated_apply (xTileAt m c ⟨8 * u + 7, h⟩) (wTileAt m c ⟨8 * u + 7, h⟩) _ p l).trans ?_
  rw [hsum, ← hadd7, zero_add, ← Finset.sum_range_succ (fun s => addend m c (8 * u + s) p l) 7]
  exact sum_by_tiles
    (fun k => xArr m c (ix2 r k) * wArr m c (ix2 o k))
    (fun s => addend m c (8 * u + s) p l)
    (fun s => addend_apply m c u s (by have := s.isLt; omega) p l r o hr ho)

/-- The output array after the kernel's run is the affine map of the three argument arrays. -/
theorem final_eq (c : Dev nD) :
    Value.G3 (F := Ideal) m c
      = affine (m ((c : Thread nD τ).loc main_arg0)) (m ((c : Thread nD τ).loc main_arg1)) (m ((c : Thread nD τ).loc main_arg2)) := by
  funext i
  obtain ⟨r, o, rfl⟩ : ∃ (r : Fin 8192) (o : Fin 4096), i = ix2 r o := ⟨i 0, i 1, eq_ix2 i⟩
  have hN : cfg0.N = 128 := N_0
  have hr := r.isLt
  have ho := o.isLt
  have hu : run3Of (ix2 r o) = 2 * (r.val / 1024) + o.val / 2048 := by
    show 2 * (r.val / 1024 - 0) + 1 * (o.val / 2048 - 0) = _
    omega
  have hlt : 8 * run3Of (ix2 r o) + 7 < cfg0.N := by rw [hu, hN]; omega
  have hloc : loc3Of (ix2 r o)
      = ix2 (⟨r.val % 1024, Nat.mod_lt _ (by decide)⟩ : Fin 1024) (⟨o.val % 2048, Nat.mod_lt _ (by decide)⟩ : Fin 2048) :=
    funext fun a => by match a with | ⟨0, _⟩ => rfl | ⟨1, _⟩ => rfl
  unfold Value.G3
  rw [dif_pos hlt, hloc]
  exact run_apply m c (run3Of (ix2 r o)) hlt _ _ r o
    (by show r.val = run3Of (ix2 r o) / 2 * 1024 + r.val % 1024; rw [hu]; omega)
    (by show o.val = run3Of (ix2 r o) % 2 * 2048 + o.val % 2048; rw [hu]; omega)

end Cert.KernelIdeal.Tile

end
-- ==== Proof.lean ====
/-
  A linear layer, y = x · wᵀ + b, computed tile by tile, against the same map computed at once.

  x is 8192 rows of 4096 features, w one row of 4096 weights per output feature (4096 of them), b one offset per
  output feature. The kernel cuts the output into tiles of 1024 rows by 2048 output features and the shared feature
  axis into eight tiles of 512; the eight grid points of an output tile clear it, add the eight partial products
  x-tile · w-tileᵀ one after the other, and finally add the offsets. The reference contracts the whole feature axis
  at once and adds the offsets broadcast to every row.

  On the extended reals both give, at entry (r, o), the sum over all 4096 features k of x (r, k) · w (o, k), plus
  b o: the kernel's eight partial sums over 512 features regroup into the one sum (addition is commutative and
  associative; no product is moved across a sum, so nothing needs to be finite), the zero the tile starts from adds
  nothing, and the narrowing of x and w to a shorter float format before the product changes no extended real.

  The kernel's output array as the fold of each output tile's run of eight points, and the reference's result as its
  operations' term, are taken from the generated modules; proved here (Proof/Fold.lean, Proof/RefRead.lean and what
  they import) is that each is the affine map of Proof/Affine.lean. No rewrite was applied when the kernel was
  idealized, so there is nothing to preserve.
-/
import proofs.«176300_j20899310862697_2_alg».proof.Defs
import proofs.«176300_j20899310862697_2_alg».proof.Proof.Gen.Kernel.Frame
import proofs.«176300_j20899310862697_2_alg».proof.Proof.Gen.KernelIdeal.Value
import proofs.«176300_j20899310862697_2_alg».proof.Proof.Gen.Pre_finite_inputs
import proofs.«176300_j20899310862697_2_alg».proof.Proof.Gen.ReferenceIdeal.Run
import proofs.«176300_j20899310862697_2_alg».proof.Proof.RefRead
import proofs.«176300_j20899310862697_2_alg».proof.Proof.Fold
import Idealize.ShloMosaic.Adequacy
import Idealize.ShloMosaic.Init

noncomputable section

namespace Cert.Proof

open Idealize.ShloMosaic Idealize.SL.Sem

/-- The idealized kernel's arguments end unchanged: its value run, with the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference's arguments end unchanged: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, w and b the two programs end with the same array: the affine map of the three. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.RefValue.ref_eq _ _ _).trans (Cert.KernelIdeal.Tile.final_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
